-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S4x1024, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S4x1024x8192 : Shape := ⟨3, ![4, 1024, 8192]⟩
abbrev S4x8192x1024 : Shape := ⟨3, ![4, 8192, 1024]⟩
abbrev S4x1x1024 : Shape := ⟨3, ![4, 1, 1024]⟩
abbrev S1x8192x1024 : Shape := ⟨3, ![1, 8192, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x8192, .f32⟩
  | .hbm, ⟨8, _⟩ => ⟨S4x8192x1024, .f32⟩
  | .hbm, ⟨9, _⟩ => ⟨S4x1024x8192, .f32⟩
  | .hbm, ⟨10, _⟩ => ⟨S4x8192x1024, .f32⟩
  | .hbm, ⟨11, _⟩ => ⟨S4x8192x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S1x8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S1x8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1x8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  transposes_S4x1024x8192_S4x8192x1024_0_2_1 : S4x1024x8192.Transposes [0, 2, 1] S4x8192x1024
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  bcast_S_S8192x1024 : S_.BroadcastsInDim S8192x1024 (![] : Fin 0 → Fin S8192x1024.rank)
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  dot_S4x1024x1024_S8192x1024_S4x1024x8192_2_1_01_0_n_n_wf : DotDims.WF S4x1024x1024 S8192x1024 S4x1024x8192 [2] [1] [0, 1] [0] [] []

variable [Facts₀]

def dot_S4x1024x1024_S8192x1024_S4x1024x8192_2_1_01_0_n_n : DotDims S4x1024x1024 S8192x1024 S4x1024x8192 where
  lhsContracting := [2]
  rhsContracting := [1]
  lhsNonContracting := [0, 1]
  rhsNonContracting := [0]
  lhsBatch := []
  rhsBatch := []
  wf := dot_S4x1024x1024_S8192x1024_S4x1024x8192_2_1_01_0_n_n_wf

class Facts : Prop extends Facts₀ where

variable [Facts]
-- ==== Proof.StackedWeights.lean ====
/-
  What the kernel's region finds in the three arrays the program prepares before launching it.

  The x-weights Wx [4, 1024, 1024] (gate, output unit, input unit) are transposed to [input unit, gate, output unit],
  flattened to [1024, 4096] and converted to bf16 (the identity on extended reals): entry (k, g·1024 + j) of the
  stacked matrix is Wx[g, j, k]. The h-weights Uh are stacked the same way. The two bias arrays [4, 1024] are added and
  flattened to one row [1, 4096]: entry (0, g·1024 + j) is bW[g, j] + bU[g, j].
-/
import proofs.«140442_j72121090835050_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Stacked

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The stacked x-weights as the operations' term of the argument. -/
theorem wall_term (c : Dev nD) :
    @Eq (FVec Ideal S1024x4096 .bf16) (V m c main_v2)
      (truncf .bf16 (shapeCast S1024x4096 (transpose S1024x4x1024 [2, 0, 1]
          (m ((c : Thread nD τ).loc main_arg3) : FVec Ideal S4x1024x1024 .f32) transposes_S4x1024x1024_S1024x4x1024_2_0_1)
          shapeCasts_S1024x4x1024_S1024x4096) bitsLt_bf16_f32) := by
  dsimp only [Gen.V, Gen.hostOps0]; after_results; rfl

/-- The stacked h-weights as the operations' term of the argument. -/
theorem uall_term (c : Dev nD) :
    @Eq (FVec Ideal S1024x4096 .bf16) (V m c main_v5)
      (truncf .bf16 (shapeCast S1024x4096 (transpose S1024x4x1024 [2, 0, 1]
          (m ((c : Thread nD τ).loc main_arg5) : FVec Ideal S4x1024x1024 .f32) transposes_S4x1024x1024_S1024x4x1024_2_0_1)
          shapeCasts_S1024x4x1024_S1024x4096) bitsLt_bf16_f32) := by
  dsimp only [Gen.V, Gen.hostOps0]; after_results; rfl

/-- The bias row as the operations' term of the two bias arguments. -/
theorem bias_term (c : Dev nD) :
    @Eq (FVec Ideal S1x4096 .f32) (V m c main_v7)
      (shapeCast S1x4096 (addf (m ((c : Thread nD τ).loc main_arg4) : FVec Ideal S4x1024 .f32)
          (m ((c : Thread nD τ).loc main_arg6) : FVec Ideal S4x1024 .f32)) shapeCasts_S4x1024_S1x4096) := by
  dsimp only [Gen.V, Gen.hostOps0]; after_results; rfl

/-- A [4, 1024, 1024] array transposed to [input, gate, output], flattened to [1024, 4096] and narrowed: entry
    (k, g·1024 + j) is the array's entry (g, j, k). -/
theorem stacked_apply (W : FVec Ideal S4x1024x1024 .f32) (g : Fin 4) (j k : Fin 1024) (q : Fin 4096)
    (hq : q.val = g.val * 1024 + j.val) :
    (truncf .bf16 (shapeCast S1024x4096 (transpose S1024x4x1024 [2, 0, 1] W transposes_S4x1024x1024_S1024x4x1024_2_0_1)
        shapeCasts_S1024x4x1024_S1024x4096) bitsLt_bf16_f32 : FVec Ideal S1024x4096 .bf16) (ix2 k q) = W (ix3 g j k) := by
  rw [truncf_apply]
  rw [shapeCast_apply _ shapeCasts_S1024x4x1024_S1024x4096 (ix2 k q) (ix3 k g j)
    (by rw [Shape.rowMajor_val_three, Shape.rowMajor_val_two]
        show (k.val * 4 + g.val) * 1024 + j.val = k.val * 4096 + q.val
        omega)]
  exact transpose_apply [2, 0, 1] W transposes_S4x1024x1024_S1024x4x1024_2_0_1 (ix3 k g j) (ix3 g j k) (fun b => match b with
    | ⟨0, _⟩ => rfl
    | ⟨1, _⟩ => rfl
    | ⟨2, _⟩ => rfl)

/-- Entry (k, g·1024 + j) of the stacked x-weights the region finds is Wx[g, j, k]. -/
theorem wall_apply (c : Dev nD) (g : Fin 4) (j k : Fin 1024) (q : Fin 4096) (hq : q.val = g.val * 1024 + j.val) :
    @Eq EReal ((V m c main_v2 : FVec Ideal S1024x4096 .bf16) (ix2 k q))
      ((m ((c : Thread nD τ).loc main_arg3) : FVec Ideal S4x1024x1024 .f32) (ix3 g j k)) := by
  rw [wall_term]
  exact stacked_apply _ g j k q hq

/-- Entry (k, g·1024 + j) of the stacked h-weights the region finds is Uh[g, j, k]. -/
theorem uall_apply (c : Dev nD) (g : Fin 4) (j k : Fin 1024) (q : Fin 4096) (hq : q.val = g.val * 1024 + j.val) :
    @Eq EReal ((V m c main_v5 : FVec Ideal S1024x4096 .bf16) (ix2 k q))
      ((m ((c : Thread nD τ).loc main_arg5) : FVec Ideal S4x1024x1024 .f32) (ix3 g j k)) := by
  rw [uall_term]
  exact stacked_apply _ g j k q hq

/-- Entry (0, g·1024 + j) of the bias row the region finds is bW[g, j] + bU[g, j]. -/
theorem bias_apply (c : Dev nD) (g : Fin 4) (j : Fin 1024) (q : Fin 4096) (hq : q.val = g.val * 1024 + j.val) :
    @Eq EReal ((V m c main_v7 : FVec Ideal S1x4096 .f32) (ix2 0 q))
      (@HAdd.hAdd EReal EReal EReal instHAdd ((m ((c : Thread nD τ).loc main_arg4) : FVec Ideal S4x1024 .f32) (ix2 g j))
        ((m ((c : Thread nD τ).loc main_arg6) : FVec Ideal S4x1024 .f32) (ix2 g j))) := by
  rw [bias_term]
  rw [shapeCast_apply _ shapeCasts_S4x1024_S1x4096 (ix2 0 q) (ix2 g j)
    (by rw [Shape.rowMajor_val_two, Shape.rowMajor_val_two]
        show g.val * 1024 + j.val = (0 : Fin 1).val * 4096 + q.val
        have : (0 : Fin 1).val = 0 := rfl
        omega)]
  rfl

end Cert.KernelIdeal.Stacked

end
-- ==== Proof.GatePreact.lean ====
/-
  The kernel body's stacked pre-activation at one element.

  The body multiplies its [128, 1024] block of x by the stacked weights [1024, 4096], does the same for h, adds the two
  products and then the bias row [1, 4096] broadcast down the 128 rows. Read at row `p`, column `q` on the extended
  reals (a matrix product into the zero accumulator is the plain sum over the contracted axis, a change of float format
  is the identity) this is
    (Σ_k X[p, k] · Wa[k, q]  +  Σ_k H[p, k] · Ua[k, q])  +  B[0, q].
-/
import proofs.«140442_j72121090835050_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Gate

open Cert.KernelIdeal Cert.KernelIdeal.Gen Idealize.ShloMosaic Idealize.ShloMosaic.ValueIdx

/-- The body's matrix product, rows of the left operand against columns of the right, into the zero accumulator: at
    (p, q) the sum over the contracted axis of A[p, k] · W[k, q]. -/
theorem matmul_rows_cols (A : FVec Ideal S128x1024 .bf16) (W : FVec Ideal S1024x4096 .bf16) (p : Fin 128) (q : Fin 4096) :
    matmul dot_S128x1024_S1024x4096_S128x4096_1_0_0_1_n_n none A W (constant S128x4096 .f32 0x00000000#32) (ix2 p q)
      = ∑ k : Fin 1024, A (ix2 p k) * W (ix2 k q) := by
  simp only [matmul]
  rw [Ideal.matmul_constant_zero_apply,
    ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p q)
      ((contrEquiv1 dot_S128x1024_S1024x4096_S128x4096_1_0_0_1_n_n 1024 rfl rfl).symm k) = ix2 p k :=
    funext fun a => Fin.ext (by
      match a with
      | ⟨0, _⟩ =>
        show (dot_S128x1024_S1024x4096_S128x4096_1_0_0_1_n_n.lhsIdx (ix2 p q) _ 0).val = p.val
        unfold DotDims.lhsIdx
        rw [dif_neg (show ¬(0 : Fin S128x1024.rank) ∈ dot_S128x1024_S1024x4096_S128x4096_1_0_0_1_n_n.lhsBatch by decide),
          dif_pos (show (0 : Fin S128x1024.rank) ∈ dot_S128x1024_S1024x4096_S128x4096_1_0_0_1_n_n.lhsNonContracting by decide)]
        rfl
      | ⟨1, _⟩ =>
        exact (dot_S128x1024_S1024x4096_S128x4096_1_0_0_1_n_n.lhsIdx_val_of_single (cl := 1) rfl (ix2 p q) _).trans hk)
  have er : dot_S128x1024_S1024x4096_S128x4096_1_0_0_1_n_n.rhsIdx (ix2 p q)
      ((contrEquiv1 dot_S128x1024_S1024x4096_S128x4096_1_0_0_1_n_n 1024 rfl rfl).symm k) = ix2 k q :=
    funext fun a => Fin.ext (by
      match a with
      | ⟨0, _⟩ =>
        exact (dot_S128x1024_S1024x4096_S128x4096_1_0_0_1_n_n.rhsIdx_val_of_single (cr := 0) rfl (ix2 p q) _).trans hk
      | ⟨1, _⟩ =>
        show (dot_S128x1024_S1024x4096_S128x4096_1_0_0_1_n_n.rhsIdx (ix2 p q) _ 1).val = q.val
        unfold DotDims.rhsIdx
        rw [dif_neg (show ¬(1 : Fin S1024x4096.rank) ∈ dot_S128x1024_S1024x4096_S128x4096_1_0_0_1_n_n.rhsBatch by decide),
          dif_pos (show (1 : Fin S1024x4096.rank) ∈ dot_S128x1024_S1024x4096_S128x4096_1_0_0_1_n_n.rhsNonContracting by decide)]
        rfl)
  rw [el, er]

/-- The bias row broadcast down the block's rows reads the row's entry of the column. -/
theorem bias_row (B : FVec Ideal S1x4096 .f32) (p : Fin 128) (q : Fin 4096) :
    broadcastTo S128x4096 B broadcasts_S1x4096_S128x4096 (ix2 p q) = B (ix2 0 q) :=
  broadcastTo_apply B broadcasts_S1x4096_S128x4096 (ix2 p q) (ix2 0 q) (fun a => match a with
    | ⟨0, _⟩ => by show (0 : Nat) = if (1 : Nat) = 1 then 0 else p.val; rw [if_pos rfl]
    | ⟨1, _⟩ => by show q.val = if (4096 : Nat) = 1 then 0 else q.val; rw [if_neg (by decide)])

/-- The stacked pre-activation the body computes, at row `p` and column `q` of the [128, 4096] block. -/
theorem stacked_at (X H : FVec Ideal S128x1024 .f32) (Wa Ua : FVec Ideal S1024x4096 .bf16) (B : FVec Ideal S1x4096 .f32)
    (p : Fin 128) (q : Fin 4096) :
    k0_pay1 (F := Ideal) X H Wa Ua B (ix2 p q)
      = ((∑ k : Fin 1024, X (ix2 p k) * Wa (ix2 k q)) + ∑ k : Fin 1024, H (ix2 p k) * Ua (ix2 k q)) + B (ix2 0 q) := by
  unfold k0_pay1
  simp only [shapeCast_self]
  rw [addf_apply, addf_apply, matmul_rows_cols, matmul_rows_cols, bias_row]
  rfl

end Cert.KernelIdeal.Gate

end
-- ==== Proof.LstmCell.lean ====
/-
  One step of an LSTM cell on the extended reals, index by index: the function both programs of this certificate compute.

  For a batch row `b` and a hidden unit `j`, gate `g` (0 forget, 1 input, 2 output, 3 candidate) has the pre-activation
    z g b j = (Σ_d Wx[g, j, d] · x[b, d]  +  Σ_d Uh[g, j, d] · h[b, d])  +  (bW[g, j] + bU[g, j]),
  the new cell state is    c' b j = σ(z 0 b j) · c[b, j] + σ(z 1 b j) · tanh(z 3 b j),
  and the new hidden state h' b j = σ(z 2 b j) · tanh(c' b j),
  with σ the logistic function 1 / (1 + e^(-z)) and tanh, both extended to ±∞ by their limits.
  The two sums are kept apart and added before the bias, which is the grouping both programs use; nothing here needs
  the inputs to be finite.
-/
import Idealize.ShloMosaic.PureOps.Ideal
import Idealize.ShloMosaic.Lib.ValueIdx

noncomputable section

open scoped BigOperators

namespace Cert.Lstm

open Idealize.ShloMosaic Idealize.ShloMosaic.ValueIdx

/-- A batch of activations, [8192, 1024]. -/
abbrev Act : Type := (⟨2, ![8192, 1024]⟩ : Shape).Idx → EReal
/-- The four gates' weight matrices, [4, 1024, 1024]: gate, output unit, input unit. -/
abbrev Wts : Type := (⟨3, ![4, 1024, 1024]⟩ : Shape).Idx → EReal
/-- The four gates' bias vectors, [4, 1024]. -/
abbrev Bia : Type := (⟨2, ![4, 1024]⟩ : Shape).Idx → EReal

variable (x h c : Act) (Wx Uh : Wts) (bW bU : Bia)

/-- Gate `g`'s pre-activation at batch row `b`, unit `j`. -/
def preact (g : Fin 4) (b : Fin 8192) (j : Fin 1024) : EReal :=
  ((∑ d : Fin 1024, Wx (ix3 g j d) * x (ix2 b d)) + ∑ d : Fin 1024, Uh (ix3 g j d) * h (ix2 b d))
    + (bW (ix2 g j) + bU (ix2 g j))

/-- The new cell state at (b, j): forget gate times the old state plus input gate times the candidate. -/
def cellAt (b : Fin 8192) (j : Fin 1024) : EReal :=
  Ideal.logistic (preact x h Wx Uh bW bU 0 b j) * c (ix2 b j)
    + Ideal.logistic (preact x h Wx Uh bW bU 1 b j) * Ideal.tanh (preact x h Wx Uh bW bU 3 b j)

/-- The new hidden state at (b, j): output gate times tanh of the new cell state. -/
def hiddenAt (b : Fin 8192) (j : Fin 1024) : EReal :=
  Ideal.logistic (preact x h Wx Uh bW bU 2 b j) * Ideal.tanh (cellAt x h c Wx Uh bW bU b j)

/-- The new cell state as an array. -/
def cellState : Act := fun i => cellAt x h c Wx Uh bW bU (i 0) (i 1)

/-- The new hidden state as an array. -/
def hiddenState : Act := fun i => hiddenAt x h c Wx Uh bW bU (i 0) (i 1)

theorem cellState_ix2 (b : Fin 8192) (j : Fin 1024) :
    cellState x h c Wx Uh bW bU (ix2 b j) = cellAt x h c Wx Uh bW bU b j := rfl

theorem hiddenState_ix2 (b : Fin 8192) (j : Fin 1024) :
    hiddenState x h c Wx Uh bW bU (ix2 b j) = hiddenAt x h c Wx Uh bW bU b j := rfl

end Cert.Lstm

end
-- ==== Proof.CellTile.lean ====
/-
  One grid point's work is a tile of the LSTM step.

  A grid point sees 128 consecutive batch rows of x, h and c (the rows from `r` on), the whole stacked weights and the
  whole bias row. Its stacked pre-activation at row `p`, column g·1024 + j is then gate `g`'s pre-activation at batch
  row r + p, unit j: the kernel's products X[p, k] · Wa[k, q] are the specification's Wx[g, j, k] · x[r + p, k] with the
  factors exchanged (multiplication of extended reals is commutative; the order and grouping of the sums are the
  same on both sides). The body's four column slices at offsets 0, 1024, 2048, 3072 pick the forget, input, output and
  candidate gates, so what it leaves in its two output blocks are the tiles of the new cell and hidden state.
-/
import proofs.«140442_j72121090835050_2_alg».proof.Proof.Gen.KernelIdeal.Value
import proofs.«140442_j72121090835050_2_alg».proof.Proof.GatePreact
import proofs.«140442_j72121090835050_2_alg».proof.Proof.LstmCell

noncomputable section

open scoped BigOperators

namespace Cert.KernelIdeal.Tile

open Cert.KernelIdeal Cert.KernelIdeal.Gen Cert.Lstm Idealize.ShloMosaic Idealize.ShloMosaic.ValueIdx

/-- The vectors a grid point loads are the tile of the arrays at batch-row offset `r`: 128 rows of the activations,
    the weights stacked gate by gate along the columns, the two biases added and laid out as one row. -/
structure IsTile (r : Nat) (X H C : FVec Ideal S128x1024 .f32) (Wa Ua : FVec Ideal S1024x4096 .bf16)
    (B : FVec Ideal S1x4096 .f32) (x h c : Act) (Wx Uh : Wts) (bW bU : Bia) : Prop where
  rowsX : ∀ (p : Fin 128) (k : Fin 1024) (b : Fin 8192), b.val = r + p.val → X (ix2 p k) = x (ix2 b k)
  rowsH : ∀ (p : Fin 128) (k : Fin 1024) (b : Fin 8192), b.val = r + p.val → H (ix2 p k) = h (ix2 b k)
  rowsC : ∀ (p : Fin 128) (k : Fin 1024) (b : Fin 8192), b.val = r + p.val → C (ix2 p k) = c (ix2 b k)
  colsW : ∀ (g : Fin 4) (j k : Fin 1024) (q : Fin 4096), q.val = g.val * 1024 + j.val → Wa (ix2 k q) = Wx (ix3 g j k)
  colsU : ∀ (g : Fin 4) (j k : Fin 1024) (q : Fin 4096), q.val = g.val * 1024 + j.val → Ua (ix2 k q) = Uh (ix3 g j k)
  biasRow : ∀ (g : Fin 4) (j : Fin 1024) (q : Fin 4096), q.val = g.val * 1024 + j.val →
    B (ix2 0 q) = bW (ix2 g j) + bU (ix2 g j)

variable {r : Nat} {X H C : FVec Ideal S128x1024 .f32} {Wa Ua : FVec Ideal S1024x4096 .bf16}
  {B : FVec Ideal S1x4096 .f32} {x h c : Act} {Wx Uh : Wts} {bW bU : Bia}

/-- The stacked pre-activation at row `p`, column g·1024 + j of the tile is gate `g`'s at batch row r + p, unit j. -/
theorem gate_eq (T : IsTile r X H C Wa Ua B x h c Wx Uh bW bU) (g : Fin 4) (z : S128x4096.Idx) (b : Fin 8192)
    (j : Fin 1024) (hb : b.val = r + (z 0).val) (hz : (z 1).val = g.val * 1024 + j.val) :
    k0_pay1 (F := Ideal) X H Wa Ua B z = preact x h Wx Uh bW bU g b j := by
  obtain ⟨p, q, rfl⟩ : ∃ (p : Fin 128) (q : Fin 4096), z = ix2 p q := ⟨z 0, z 1, eq_ix2 z⟩
  rw [Gate.stacked_at]
  unfold preact
  refine congrArg₂ (· + ·) (congrArg₂ (· + ·) ?_ ?_) (T.biasRow g j q hz)
  · exact Finset.sum_congr rfl fun k _ => by rw [T.rowsX p k b hb, T.colsW g j k q hz, mul_comm]
  · exact Finset.sum_congr rfl fun k _ => by rw [T.rowsH p k b hb, T.colsU g j k q hz, mul_comm]

/-- What the body leaves in its cell-state block, at element `y` of the block, is the new cell state at the array index
    `i` that element sits at (row r + y₀, same column). -/
theorem cell_eq (T : IsTile r X H C Wa Ua B x h c Wx Uh bW bU) (y : S128x1024.Idx) (i : S8192x1024.Idx)
    (hi0 : (i 0).val = r + (y 0).val) (hi1 : (i 1).val = (y 1).val) :
    Value.E7 (F := Ideal) X H Wa Ua B C y = cellState x h c Wx Uh bW bU i := by
  obtain ⟨p, j, rfl⟩ : ∃ (p : Fin 128) (j : Fin 1024), y = ix2 p j := ⟨y 0, y 1, eq_ix2 y⟩
  obtain ⟨b, j', rfl⟩ : ∃ (b : Fin 8192) (j' : Fin 1024), i = ix2 b j' := ⟨i 0, i 1, eq_ix2 i⟩
  obtain rfl : j = j' := Fin.ext hi1.symm
  have hb : b.val = r + p.val := hi0
  have eC : C (Value.ix7_1 (ix2 p j)) = c (ix2 b j) :=
    (congrArg C (funext fun a => by match a with | ⟨0, _⟩ => rfl | ⟨1, _⟩ => rfl)).trans (T.rowsC p j b hb)
  rw [cellState_ix2]
  unfold cellAt
  show Ideal.logistic (k0_pay1 (F := Ideal) X H Wa Ua B (Value.ix7_0 (ix2 p j))) * C (Value.ix7_1 (ix2 p j))
      + Ideal.logistic (k0_pay1 (F := Ideal) X H Wa Ua B (Value.ix7_2 (ix2 p j)))
        * Ideal.tanh (k0_pay1 (F := Ideal) X H Wa Ua B (Value.ix7_3 (ix2 p j))) = _
  rw [gate_eq T 0 (Value.ix7_0 (ix2 p j)) b j hb (by show j.val = 0 * 1024 + j.val; omega),
    gate_eq T 1 (Value.ix7_2 (ix2 p j)) b j hb (by show j.val + 1024 = 1 * 1024 + j.val; omega),
    gate_eq T 3 (Value.ix7_3 (ix2 p j)) b j hb (by show j.val + 3072 = 3 * 1024 + j.val; omega), eC]

/-- What the body leaves in its hidden-state block, at element `y`, is the new hidden state at the array index `i` that
    element sits at. -/
theorem hidden_eq (T : IsTile r X H C Wa Ua B x h c Wx Uh bW bU) (y : S128x1024.Idx) (i : S8192x1024.Idx)
    (hi0 : (i 0).val = r + (y 0).val) (hi1 : (i 1).val = (y 1).val) :
    Value.E6 (F := Ideal) X H Wa Ua B C y = hiddenState x h c Wx Uh bW bU i := by
  obtain ⟨p, j, rfl⟩ : ∃ (p : Fin 128) (j : Fin 1024), y = ix2 p j := ⟨y 0, y 1, eq_ix2 y⟩
  obtain ⟨b, j', rfl⟩ : ∃ (b : Fin 8192) (j' : Fin 1024), i = ix2 b j' := ⟨i 0, i 1, eq_ix2 i⟩
  obtain rfl : j = j' := Fin.ext hi1.symm
  have hb : b.val = r + p.val := hi0
  have eC : C (Value.ix6_2 (ix2 p j)) = c (ix2 b j) :=
    (congrArg C (funext fun a => by match a with | ⟨0, _⟩ => rfl | ⟨1, _⟩ => rfl)).trans (T.rowsC p j b hb)
  rw [hiddenState_ix2]
  unfold hiddenAt cellAt
  show Ideal.logistic (k0_pay1 (F := Ideal) X H Wa Ua B (Value.ix6_0 (ix2 p j)))
      * Ideal.tanh (Ideal.logistic (k0_pay1 (F := Ideal) X H Wa Ua B (Value.ix6_1 (ix2 p j))) * C (Value.ix6_2 (ix2 p j))
        + Ideal.logistic (k0_pay1 (F := Ideal) X H Wa Ua B (Value.ix6_3 (ix2 p j)))
          * Ideal.tanh (k0_pay1 (F := Ideal) X H Wa Ua B (Value.ix6_4 (ix2 p j)))) = _
  rw [gate_eq T 2 (Value.ix6_0 (ix2 p j)) b j hb (by show j.val + 2048 = 2 * 1024 + j.val; omega),
    gate_eq T 0 (Value.ix6_1 (ix2 p j)) b j hb (by show j.val = 0 * 1024 + j.val; omega),
    gate_eq T 1 (Value.ix6_3 (ix2 p j)) b j hb (by show j.val + 1024 = 1 * 1024 + j.val; omega),
    gate_eq T 3 (Value.ix6_4 (ix2 p j)) b j hb (by show j.val + 3072 = 3 * 1024 + j.val; omega), eC]

end Cert.KernelIdeal.Tile

end
-- ==== Proof.CellBlocks.lean ====
/-
  From the grid points' blocks to the two result arrays.

  Grid point `t` of the 64 stages rows 128·t … 128·t + 127 of x, h and c, the whole stacked weights and bias row, and
  writes back rows 128·t … 128·t + 127 of the two results. So the vectors it loads are the tile at row offset 128·t of
  the argument arrays (the activations as launched; the stacked weights and the bias row as the program's preparatory
  operations left them), what it writes back is that block of the new hidden and cell state, and since the 64 row
  blocks cover the 8192 rows, the two result arrays end holding the new hidden state and the new cell state.
-/
import proofs.«140442_j72121090835050_2_alg».proof.Proof.Gen.KernelIdeal.Value
import proofs.«140442_j72121090835050_2_alg».proof.Proof.StackedWeights
import proofs.«140442_j72121090835050_2_alg».proof.Proof.CellTile

noncomputable section

namespace Cert.KernelIdeal.Blocks

open Cert.KernelIdeal Cert.KernelIdeal.Gen Cert.Lstm Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The new hidden state of the launch contents of the seven arguments. -/
abbrev hiddenArr (c : Dev nD) : Buf (Elt Ideal) ((c : Thread nD τ).loc main_v8_0) :=
  hiddenState (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))
    (m ((c : Thread nD τ).loc main_arg6))

/-- The new cell state of the launch contents of the seven arguments. -/
abbrev cellArr (c : Dev nD) : Buf (Elt Ideal) ((c : Thread nD τ).loc main_v8_1) :=
  cellState (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))
    (m ((c : Thread nD τ).loc main_arg6))

/-- The printed index maps over the grid: the activations' and the results' windows are at row block `t`, the stacked
    weights' and the bias row's at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of x's block at point `t` is row 128·t + p of x as launched. -/
theorem x_rows (c : Dev nD) (t : Fin cfg0.N) (p : Fin 128) (k : Fin 1024) (b : Fin 8192) (hb : b.val = t.val * 128 + p.val) :
    (iblk m c 0 t : FVec Ideal S128x1024 .f32) (ix2 p k)
      = (m ((c : Thread nD τ).loc main_arg0) : FVec Ideal S8192x1024 .f32) (ix2 b k) := by
  obtain ⟨e0, e1, -⟩ := idx_facts t
  show V m c main_arg0 (((cfg0.win 0).blk t).view.emb (ix2 p k)) = _
  rw [V_main_arg0]
  refine congrArg (m ((c : Thread nD τ).loc main_arg0) : FVec Ideal S8192x1024 .f32) (funext fun a => Fin.ext ?_)
  match a with
  | ⟨0, _⟩ => show win0_0.index t (0 : Fin 2) * 128 + 1 * p.val = b.val; rw [e0, hb]; omega
  | ⟨1, _⟩ => show win0_0.index t (1 : Fin 2) * 1024 + 1 * k.val = k.val; rw [e1]; omega

/-- Row `p` of h's block at point `t` is row 128·t + p of h as launched. -/
theorem h_rows (c : Dev nD) (t : Fin cfg0.N) (p : Fin 128) (k : Fin 1024) (b : Fin 8192) (hb : b.val = t.val * 128 + p.val) :
    (iblk m c 1 t : FVec Ideal S128x1024 .f32) (ix2 p k)
      = (m ((c : Thread nD τ).loc main_arg1) : FVec Ideal S8192x1024 .f32) (ix2 b k) := by
  obtain ⟨-, -, e0, e1, -⟩ := idx_facts t
  show V m c main_arg1 (((cfg0.win 1).blk t).view.emb (ix2 p k)) = _
  rw [V_main_arg1]
  refine congrArg (m ((c : Thread nD τ).loc main_arg1) : FVec Ideal S8192x1024 .f32) (funext fun a => Fin.ext ?_)
  match a with
  | ⟨0, _⟩ => show win0_1.index t (0 : Fin 2) * 128 + 1 * p.val = b.val; rw [e0, hb]; omega
  | ⟨1, _⟩ => show win0_1.index t (1 : Fin 2) * 1024 + 1 * k.val = k.val; rw [e1]; omega

/-- Row `p` of c's block at point `t` is row 128·t + p of c as launched. -/
theorem c_rows (c : Dev nD) (t : Fin cfg0.N) (p : Fin 128) (k : Fin 1024) (b : Fin 8192) (hb : b.val = t.val * 128 + p.val) :
    (iblk m c 2 t : FVec Ideal S128x1024 .f32) (ix2 p k)
      = (m ((c : Thread nD τ).loc main_arg2) : FVec Ideal S8192x1024 .f32) (ix2 b k) := by
  obtain ⟨-, -, -, -, e0, e1, -⟩ := idx_facts t
  show V m c main_arg2 (((cfg0.win 2).blk t).view.emb (ix2 p k)) = _
  rw [V_main_arg2]
  refine congrArg (m ((c : Thread nD τ).loc main_arg2) : FVec Ideal S8192x1024 .f32) (funext fun a => Fin.ext ?_)
  match a with
  | ⟨0, _⟩ => show win0_2.index t (0 : Fin 2) * 128 + 1 * p.val = b.val; rw [e0, hb]; omega
  | ⟨1, _⟩ => show win0_2.index t (1 : Fin 2) * 1024 + 1 * k.val = k.val; rw [e1]; omega

/-- The stacked x-weights' block at any point is the whole stacked matrix. -/
theorem wall_whole (c : Dev nD) (t : Fin cfg0.N) (k : Fin 1024) (q : Fin 4096) :
    (iblk m c 3 t : FVec Ideal S1024x4096 .bf16) (ix2 k q) = (V m c main_v2 : FVec Ideal S1024x4096 .bf16) (ix2 k q) := by
  obtain ⟨-, -, -, -, -, -, e0, e1, -⟩ := idx_facts t
  show V m c main_v2 (((cfg0.win 3).blk t).view.emb (ix2 k q)) = _
  refine congrArg (V m c main_v2 : FVec Ideal S1024x4096 .bf16) (funext fun a => Fin.ext ?_)
  match a with
  | ⟨0, _⟩ => show win0_3.index t (0 : Fin 2) * 1024 + 1 * k.val = k.val; rw [e0]; omega
  | ⟨1, _⟩ => show win0_3.index t (1 : Fin 2) * 4096 + 1 * q.val = q.val; rw [e1]; omega

/-- The stacked h-weights' block at any point is the whole stacked matrix. -/
theorem uall_whole (c : Dev nD) (t : Fin cfg0.N) (k : Fin 1024) (q : Fin 4096) :
    (iblk m c 4 t : FVec Ideal S1024x4096 .bf16) (ix2 k q) = (V m c main_v5 : FVec Ideal S1024x4096 .bf16) (ix2 k q) := by
  obtain ⟨-, -, -, -, -, -, -, -, e0, e1, -⟩ := idx_facts t
  show V m c main_v5 (((cfg0.win 4).blk t).view.emb (ix2 k q)) = _
  refine congrArg (V m c main_v5 : FVec Ideal S1024x4096 .bf16) (funext fun a => Fin.ext ?_)
  match a with
  | ⟨0, _⟩ => show win0_4.index t (0 : Fin 2) * 1024 + 1 * k.val = k.val; rw [e0]; omega
  | ⟨1, _⟩ => show win0_4.index t (1 : Fin 2) * 4096 + 1 * q.val = q.val; rw [e1]; omega

/-- The bias row's block at any point is the whole row. -/
theorem bias_whole (c : Dev nD) (t : Fin cfg0.N) (q : Fin 4096) :
    (iblk m c 5 t : FVec Ideal S1x4096 .f32) (ix2 0 q) = (V m c main_v7 : FVec Ideal S1x4096 .f32) (ix2 0 q) := by
  obtain ⟨-, -, -, -, -, -, -, -, -, -, e0, e1, -⟩ := idx_facts t
  show V m c main_v7 (((cfg0.win 5).blk t).view.emb (ix2 0 q)) = _
  refine congrArg (V m c main_v7 : FVec Ideal S1x4096 .f32) (funext fun a => Fin.ext ?_)
  match a with
  | ⟨0, _⟩ => show win0_5.index t (0 : Fin 2) * 1 + 1 * (0 : Fin 1).val = (0 : Fin 1).val; rw [e0]; omega
  | ⟨1, _⟩ => show win0_5.index t (1 : Fin 2) * 4096 + 1 * q.val = q.val; rw [e1]; omega

/-- What point `t` loads is the tile at row offset 128·t of the arguments. -/
theorem tile (c : Dev nD) (t : Fin cfg0.N) :
    Tile.IsTile (t.val * 128) (iblk m c 0 t) (iblk m c 1 t) (iblk m c 2 t) (iblk m c 3 t) (iblk m c 4 t) (iblk m c 5 t)
      (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg4))
      (m ((c : Thread nD τ).loc main_arg6)) where
  rowsX p k b hb := x_rows m c t p k b hb
  rowsH p k b hb := h_rows m c t p k b hb
  rowsC p k b hb := c_rows m c t p k b hb
  colsW g j k q hq := (wall_whole m c t k q).trans (Stacked.wall_apply m c g j k q hq)
  colsU g j k q hq := (uall_whole m c t k q).trans (Stacked.uall_apply m c g j k q hq)
  biasRow g j q hq := (bias_whole m c t q).trans (Stacked.bias_apply m c g j q hq)

/-- What point `t` writes back to the first result is block `t` of the new hidden state. -/
theorem flushed6_eq (c : Dev nD) (t : Fin cfg0.N) :
    (dats m 0 c).flushed 6 t = ((cfg0.win 6).blk t).view.read (Elt Ideal) (hiddenArr m c) := by
  rw [Value.flushed6]
  unfold out0_6
  simp only [View.ld_unit_zero (S := S128x1024) zero_off, View.ld_unit_zero (S := S1024x4096) zero_off,
    View.ld_unit_zero (S := S1x4096) zero_off]
  obtain ⟨-, -, -, -, -, -, -, -, -, -, -, -, e0, e1, -⟩ := idx_facts t
  funext y
  show View.canon [⟨r0_0, k0_pay3 (iblk m c 0 t) (iblk m c 1 t) (iblk m c 2 t) (iblk m c 3 t) (iblk m c 4 t) (iblk m c 5 t)⟩] y
    = hiddenArr m c (((cfg0.win 6).blk t).view.emb y)
  refine (Value.canon6_eq (F := Ideal) (iblk m c 0 t) (iblk m c 1 t) (iblk m c 3 t) (iblk m c 4 t) (iblk m c 5 t)
    (iblk m c 2 t) y).trans ?_
  refine Tile.hidden_eq (tile m c t) y _ ?_ ?_
  · show win0_6.index t (0 : Fin 2) * 128 + 1 * (y 0).val = t.val * 128 + (y 0).val; rw [e0]; omega
  · show win0_6.index t (1 : Fin 2) * 1024 + 1 * (y 1).val = (y 1).val; rw [e1]; omega

/-- What point `t` writes back to the second result is block `t` of the new cell state. -/
theorem flushed7_eq (c : Dev nD) (t : Fin cfg0.N) :
    (dats m 0 c).flushed 7 t = ((cfg0.win 7).blk t).view.read (Elt Ideal) (cellArr m c) := by
  rw [Value.flushed7]
  unfold out0_7
  simp only [View.ld_unit_zero (S := S128x1024) zero_off, View.ld_unit_zero (S := S1024x4096) zero_off,
    View.ld_unit_zero (S := S1x4096) zero_off]
  obtain ⟨-, -, -, -, -, -, -, -, -, -, -, -, -, -, e0, e1⟩ := idx_facts t
  funext y
  show View.canon [⟨r0_0, k0_pay2 (iblk m c 0 t) (iblk m c 1 t) (iblk m c 2 t) (iblk m c 3 t) (iblk m c 4 t) (iblk m c 5 t)⟩] y
    = cellArr m c (((cfg0.win 7).blk t).view.emb y)
  refine (Value.canon7_eq (F := Ideal) (iblk m c 0 t) (iblk m c 1 t) (iblk m c 3 t) (iblk m c 4 t) (iblk m c 5 t)
    (iblk m c 2 t) y).trans ?_
  refine Tile.cell_eq (tile m c t) y _ ?_ ?_
  · show win0_7.index t (0 : Fin 2) * 128 + 1 * (y 0).val = t.val * 128 + (y 0).val; rw [e0]; omega
  · show win0_7.index t (1 : Fin 2) * 1024 + 1 * (y 1).val = (y 1).val; rw [e1]; omega

/-- An index of the first result is in point `t`'s block iff each coordinate is in the block's range on its axis. -/
theorem mem_blk6 (t : Fin cfg0.N) (i : S8192x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v8_0).slice (win0_6.rect t)).set ↔ _
  rw [View.set_slice_whole, Rect.mem_set_unit]
  exact Iff.rfl

/-- An index of the second result is in point `t`'s block iff each coordinate is in the block's range on its axis. -/
theorem mem_blk7 (t : Fin cfg0.N) (i : S8192x1024.Idx) :
    i ∈ ((cfg0.win 7).blk t).view.set ↔ ∀ a : Fin 2, win0_7.index t a * S128x1024.size a ≤ (i a).val
      ∧ (i a).val < win0_7.index t a * S128x1024.size a + S128x1024.size a := by
  show i ∈ ((View.whole main_v8_1).slice (win0_7.rect t)).set ↔ _
  rw [View.set_slice_whole, Rect.mem_set_unit]
  exact Iff.rfl

/-- Row `r` of the first result is written by point `r / 128`. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, -, -, -, -, -, -, -, -, -, e0, e1, -⟩ := idx_facts t
  refine ⟨t, flush0_6 t, ?_⟩
  rw [mem_blk6]
  intro a
  match a with
  | ⟨0, _⟩ =>
    show win0_6.index t (0 : Fin 2) * 128 ≤ (i 0).val ∧ (i 0).val < win0_6.index t (0 : Fin 2) * 128 + 128
    rw [e0, ht]; omega
  | ⟨1, _⟩ =>
    show win0_6.index t (1 : Fin 2) * 1024 ≤ (i 1).val ∧ (i 1).val < win0_6.index t (1 : Fin 2) * 1024 + 1024
    rw [e1]; omega

/-- Row `r` of the second result is written by point `r / 128`. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 128 ≤ (i 0).val ∧ (i 0).val < win0_7.index t (0 : Fin 2) * 128 + 128
    rw [e0, ht]; omega
  | ⟨1, _⟩ =>
    show win0_7.index t (1 : Fin 2) * 1024 ≤ (i 1).val ∧ (i 1).val < win0_7.index t (1 : Fin 2) * 1024 + 1024
    rw [e1]; omega

/-- The first result array ends holding the new hidden state. -/
theorem final6 (c : Dev nD) : (dats m 0 c).arrAt 6 cfg0.N = hiddenArr m c :=
  (dats m 0 c).arrAt_eq_of_cover 6 (hiddenArr m c) (fun t _ => flushed6_eq m c t) cover6

/-- The second result array ends holding the new cell state. -/
theorem final7 (c : Dev nD) : (dats m 0 c).arrAt 7 cfg0.N = cellArr m c :=
  (dats m 0 c).arrAt_eq_of_cover 7 (cellArr m c) (fun t _ => flushed7_eq m c t) cover7

/-- The kernel's run, read: the two results at the new hidden and cell state of the arguments, the arguments unchanged. -/
theorem run : θ_run defs (onTc (τ := τ) (main (F := Ideal))) ⟨m, fun _ => 0, ρ⟩ fun r => ∀ c : Dev nD,
      r.2.mem ((c : Thread nD τ).loc main_v8_0) = hiddenArr m c
      ∧ r.2.mem ((c : Thread nD τ).loc main_v8_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Blocks

end
-- ==== Proof.LibLogisticExpanded.lean ====
/-
  The logistic function on the extended reals in its expanded spelling.

  A program that does not use a logistic operation writes σ(z) as 1.0 / (1.0 + exp (-z)), with the f32 word of 1.0 for
  both ones. On the extended reals (division, exponential and negation extended to ±∞ as the ideal instance extends
  them) this is the ideal instance's logistic function, which is what a logistic operation denotes there: the word of
  1.0 is the real number 1, and the rest is the definition. Imports only the ideal instance.
-/
import Idealize.ShloMosaic.PureOps.Ideal

noncomputable section

namespace Cert.Lib.Logistic

open Idealize.ShloMosaic

/-- The f32 word of 1.0 is the extended real 1. -/
theorem one_word : Ideal.ofBits .f32 0x3F800000#32 = 1 := by
  simp [Ideal.ofBits, Ideal.ieee, -EReal.coe_mul]; norm_num

/-- The expanded logistic 1.0 / (1.0 + exp (-z)), both ones the f32 word of 1.0, is the logistic function, for every
    extended real `z` (the infinities included). -/
theorem logistic_expanded (z : EReal) :
    Ideal.div (Ideal.ofBits .f32 0x3F800000#32) (Ideal.ofBits .f32 0x3F800000#32 + Ideal.exp (-z)) = Ideal.logistic z := by
  rw [one_word]; rfl

/-- The same read through the operations of the float interface at the ideal instance, host side: divide, add,
    exponential and negate of the host program. -/
theorem host_logistic_expanded (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z :=
  logistic_expanded z

end Cert.Lib.Logistic

end
-- ==== Proof.ReferenceCell.lean ====
/-
  The reference program computes the LSTM step of the specification.

  It contracts the weights with the activations gate by gate (Wx[g, j, d] · x[b, d] summed over d, laid out [gate, unit,
  batch] and transposed to [gate, batch, unit]), adds the two contractions and then the summed biases broadcast over the
  batch, cuts the four gates out, and applies to each the logistic function in its expanded form 1 / (1 + exp (-z)) or
  tanh. Read one operation at a time at an index, each gate's slice is the specification's pre-activation, the expanded
  form is the logistic function, and the two results are the specification's cell and hidden state.
-/
import proofs.«140442_j72121090835050_2_alg».proof.Proof.Gen.ReferenceIdeal.Read
import proofs.«140442_j72121090835050_2_alg».proof.Proof.LstmCell
import proofs.«140442_j72121090835050_2_alg».proof.Proof.LibLogisticExpanded

noncomputable section

open scoped BigOperators

namespace Cert.ReferenceIdeal.Cell

open Cert.ReferenceIdeal Cert.ReferenceIdeal.Read Cert.Lstm Idealize.ShloMosaic Idealize.ShloMosaic.ValueIdx

variable (x0 x1 x2 : FVec Ideal S8192x1024 .f32) (x3 : FVec Ideal S4x1024x1024 .f32) (x4 : FVec Ideal S4x1024 .f32)
  (x5 : FVec Ideal S4x1024x1024 .f32) (x6 : FVec Ideal S4x1024 .f32)

/-- The stacked pre-activations [gate, batch, unit] of the reference, at (g, b, j). -/
theorem stacked_ref (g : Fin 4) (b : Fin 8192) (j : Fin 1024) :
    val_main_v8 (F := Ideal) x0 x1 x3 x4 x5 x6 (ix3 g b j) = preact x0 x1 x3 x5 x4 x6 g b j := by
  have el0 : ∀ k : Fin 1024, lidx_main_v0 (idx_main_v1 (ix3 g b j)) k = ix3 g j k := fun k =>
    funext fun a => by match a with | ⟨0, _⟩ => rfl | ⟨1, _⟩ => rfl | ⟨2, _⟩ => rfl
  have er0 : ∀ k : Fin 1024, ridx_main_v0 (idx_main_v1 (ix3 g b j)) k = ix2 b k := fun k =>
    funext fun a => by match a with | ⟨0, _⟩ => rfl | ⟨1, _⟩ => rfl
  have el2 : ∀ k : Fin 1024, lidx_main_v2 (idx_main_v3 (ix3 g b j)) k = ix3 g j k := fun k =>
    funext fun a => by match a with | ⟨0, _⟩ => rfl | ⟨1, _⟩ => rfl | ⟨2, _⟩ => rfl
  have er2 : ∀ k : Fin 1024, ridx_main_v2 (idx_main_v3 (ix3 g b j)) k = ix2 b k := fun k =>
    funext fun a => by match a with | ⟨0, _⟩ => rfl | ⟨1, _⟩ => rfl
  have eb : idx_main_v6 (idx_main_v7 (ix3 g b j)) = ix2 g j :=
    funext fun a => by match a with | ⟨0, _⟩ => rfl | ⟨1, _⟩ => rfl
  rw [val_main_v8_apply, val_main_v4_apply, val_main_v1_apply, val_main_v0_apply, val_main_v3_apply, val_main_v2_apply,
    val_main_v7_apply, val_main_v6_apply, val_main_v5_apply]
  simp only [el0, er0, el2, er2, eb]
  rfl

/-- A row-major [8192, 1024] index read as [1, 8192, 1024] and then as slab `g` of [4, 8192, 1024] is (g, b, j). -/
theorem slab_idx (g : Fin 4) (b : Fin 8192) (j : Fin 1024) (s : S1x8192x1024.Idx → S4x8192x1024.Idx)
    (r : S8192x1024.Idx → S1x8192x1024.Idx)
    (hs : ∀ i : S1x8192x1024.Idx, ((s i) 0).val = g.val + (i 0).val ∧ ((s i) 1).val = (i 1).val ∧ ((s i) 2).val = (i 2).val)
    (hr : ∀ i : S8192x1024.Idx, ((r i) 0).val = 0 ∧ ((r i) 1).val = ((i 0).val * 1024 + (i 1).val) / 1024 % 8192
      ∧ ((r i) 2).val = ((i 0).val * 1024 + (i 1).val) % 1024) :
    s (r (ix2 b j)) = ix3 g b j := by
  obtain ⟨s0, s1, s2⟩ := hs (r (ix2 b j))
  obtain ⟨r0, r1, r2⟩ := hr (ix2 b j)
  have hb : b.val < 8192 := b.isLt
  have hj : j.val < 1024 := j.isLt
  funext a
  apply Fin.ext
  match a with
  | ⟨0, _⟩ => show ((s (r (ix2 b j))) 0).val = g.val; rw [s0, r0]; omega
  | ⟨1, _⟩ =>
    show ((s (r (ix2 b j))) 1).val = b.val
    rw [s1, r1]
    show (b.val * 1024 + j.val) / 1024 % 8192 = b.val
    omega
  | ⟨2, _⟩ =>
    show ((s (r (ix2 b j))) 2).val = j.val
    rw [s2, r2]
    show (b.val * 1024 + j.val) % 1024 = j.val
    omega

/-- The forget gate's slice is gate 0's pre-activation. -/
theorem slice0 (b : Fin 8192) (j : Fin 1024) :
    val_main_v10 (F := Ideal) x0 x1 x3 x4 x5 x6 (ix2 b j) = preact x0 x1 x3 x5 x4 x6 0 b j := by
  rw [val_main_v10_apply, val_main_v9_apply,
    slab_idx 0 b j idx_main_v9 idx_main_v10 (fun i => ⟨by show (i 0).val = 0 + (i 0).val; omega, rfl, rfl⟩)
      (fun i => ⟨rfl, rfl, rfl⟩)]
  exact stacked_ref x0 x1 x3 x4 x5 x6 0 b j

/-- The input gate's slice is gate 1's pre-activation. -/
theorem slice1 (b : Fin 8192) (j : Fin 1024) :
    val_main_v18 (F := Ideal) x0 x1 x3 x4 x5 x6 (ix2 b j) = preact x0 x1 x3 x5 x4 x6 1 b j := by
  rw [val_main_v18_apply, val_main_v17_apply,
    slab_idx 1 b j idx_main_v17 idx_main_v18 (fun i => ⟨rfl, rfl, rfl⟩) (fun i => ⟨rfl, rfl, rfl⟩)]
  exact stacked_ref x0 x1 x3 x4 x5 x6 1 b j

/-- The output gate's slice is gate 2's pre-activation. -/
theorem slice2 (b : Fin 8192) (j : Fin 1024) :
    val_main_v26 (F := Ideal) x0 x1 x3 x4 x5 x6 (ix2 b j) = preact x0 x1 x3 x5 x4 x6 2 b j := by
  rw [val_main_v26_apply, val_main_v25_apply,
    slab_idx 2 b j idx_main_v25 idx_main_v26 (fun i => ⟨rfl, rfl, rfl⟩) (fun i => ⟨rfl, rfl, rfl⟩)]
  exact stacked_ref x0 x1 x3 x4 x5 x6 2 b j

/-- The candidate's slice is gate 3's pre-activation. -/
theorem slice3 (b : Fin 8192) (j : Fin 1024) :
    val_main_v34 (F := Ideal) x0 x1 x3 x4 x5 x6 (ix2 b j) = preact x0 x1 x3 x5 x4 x6 3 b j := by
  rw [val_main_v34_apply, val_main_v33_apply,
    slab_idx 3 b j idx_main_v33 idx_main_v34 (fun i => ⟨rfl, rfl, rfl⟩) (fun i => ⟨rfl, rfl, rfl⟩)]
  exact stacked_ref x0 x1 x3 x4 x5 x6 3 b j

/-- The forget gate: the expanded logistic of gate 0's pre-activation. -/
theorem forget_gate (b : Fin 8192) (j : Fin 1024) :
    val_main_v16 (F := Ideal) x0 x1 x3 x4 x5 x6 (ix2 b j) = Ideal.logistic (preact x0 x1 x3 x5 x4 x6 0 b j) := by
  rw [val_main_v16_apply, val_main_v15_apply, val_main_cst_0_apply, val_main_v14_apply, val_main_v13_apply,
    val_main_cst_apply, val_main_v12_apply, val_main_v11_apply, slice0]
  exact Cert.Lib.Logistic.logistic_expanded _

/-- The input gate: the expanded logistic of gate 1's pre-activation. -/
theorem input_gate (b : Fin 8192) (j : Fin 1024) :
    val_main_v24 (F := Ideal) x0 x1 x3 x4 x5 x6 (ix2 b j) = Ideal.logistic (preact x0 x1 x3 x5 x4 x6 1 b j) := by
  rw [val_main_v24_apply, val_main_v23_apply, val_main_cst_2_apply, val_main_v22_apply, val_main_v21_apply,
    val_main_cst_1_apply, val_main_v20_apply, val_main_v19_apply, slice1]
  exact Cert.Lib.Logistic.logistic_expanded _

/-- The output gate: the expanded logistic of gate 2's pre-activation. -/
theorem output_gate (b : Fin 8192) (j : Fin 1024) :
    val_main_v32 (F := Ideal) x0 x1 x3 x4 x5 x6 (ix2 b j) = Ideal.logistic (preact x0 x1 x3 x5 x4 x6 2 b j) := by
  rw [val_main_v32_apply, val_main_v31_apply, val_main_cst_4_apply, val_main_v30_apply, val_main_v29_apply,
    val_main_cst_3_apply, val_main_v28_apply, val_main_v27_apply, slice2]
  exact Cert.Lib.Logistic.logistic_expanded _

/-- The reference's second result at (b, j) is the new cell state. -/
theorem cell_ref (b : Fin 8192) (j : Fin 1024) :
    val_main_v38 (F := Ideal) x0 x1 x2 x3 x4 x5 x6 (ix2 b j) = cellAt x0 x1 x2 x3 x5 x4 x6 b j := by
  rw [val_main_v38_apply, val_main_v36_apply, forget_gate, val_main_v37_apply, input_gate, val_main_v35_apply, slice3]
  rfl

/-- The reference's first result at (b, j) is the new hidden state. -/
theorem hidden_ref (b : Fin 8192) (j : Fin 1024) :
    val_main_v40 (F := Ideal) x0 x1 x2 x3 x4 x5 x6 (ix2 b j) = hiddenAt x0 x1 x2 x3 x5 x4 x6 b j := by
  rw [val_main_v40_apply, output_gate, val_main_v39_apply, cell_ref]
  rfl

/-- The reference's second result is the new cell state of its arguments. -/
theorem cell_array : val_main_v38 (F := Ideal) x0 x1 x2 x3 x4 x5 x6 = cellState x0 x1 x2 x3 x5 x4 x6 := by
  funext i
  obtain ⟨b, j, rfl⟩ : ∃ (b : Fin 8192) (j : Fin 1024), i = ix2 b j := ⟨i 0, i 1, eq_ix2 i⟩
  rw [cell_ref, cellState_ix2]

/-- The reference's first result is the new hidden state of its arguments. -/
theorem hidden_array : val_main_v40 (F := Ideal) x0 x1 x2 x3 x4 x5 x6 = hiddenState x0 x1 x2 x3 x5 x4 x6 := by
  funext i
  obtain ⟨b, j, rfl⟩ : ∃ (b : Fin 8192) (j : Fin 1024), i = ix2 b j := ⟨i 0, i 1, eq_ix2 i⟩
  rw [hidden_ref, hiddenState_ix2]

end Cert.ReferenceIdeal.Cell

end
-- ==== Proof.lean ====
/-
  The kernel computes one LSTM step — gates from two wide matrix products against gate-stacked weights, then the cell and
  hidden state — on 64 blocks of 128 batch rows; the reference computes the same step with one contraction per weight
  array over the whole batch. On the extended reals both are the function of Proof/LstmCell.lean: the stacked weights'
  entry (k, g·1024 + j) is the gate's weight (g, j, k), so each block's pre-activations are the reference's with the two
  factors of every product exchanged and the same grouping of the sums; the kernel's logistic operation and the
  reference's 1 / (1 + exp (-z)) are one function; tanh is one function.

  The three frames are the generated runs (the reference's with its results dropped); the kernel was idealized without
  any rewrite, so nothing is owed for that; the value claim sets the kernel's run (Proof/CellBlocks.lean) beside the
  reference's generated run read operation by operation (Proof/ReferenceCell.lean).
-/
import proofs.«140442_j72121090835050_2_alg».proof.Defs
import proofs.«140442_j72121090835050_2_alg».proof.Proof.Gen.Kernel
import proofs.«140442_j72121090835050_2_alg».proof.Proof.Gen.Kernel.Skeleton
import proofs.«140442_j72121090835050_2_alg».proof.Proof.Gen.Kernel.Launch
import proofs.«140442_j72121090835050_2_alg».proof.Proof.Gen.Kernel.Points
import proofs.«140442_j72121090835050_2_alg».proof.Proof.Gen.Kernel.Frame
import proofs.«140442_j72121090835050_2_alg».proof.Proof.Gen.KernelIdeal
import proofs.«140442_j72121090835050_2_alg».proof.Proof.Gen.KernelIdeal.Skeleton
import proofs.«140442_j72121090835050_2_alg».proof.Proof.Gen.KernelIdeal.Launch
import proofs.«140442_j72121090835050_2_alg».proof.Proof.Gen.KernelIdeal.Points
import proofs.«140442_j72121090835050_2_alg».proof.Proof.Gen.KernelIdeal.Frame
import proofs.«140442_j72121090835050_2_alg».proof.Proof.Gen.ReferenceIdeal
import proofs.«140442_j72121090835050_2_alg».proof.Proof.Gen.Pre_finite_inputs
import proofs.«140442_j72121090835050_2_alg».proof.Proof.Gen.KernelIdeal.Value
import proofs.«140442_j72121090835050_2_alg».proof.Proof.Gen.ReferenceIdeal.Run
import proofs.«140442_j72121090835050_2_alg».proof.Proof.Gen.ReferenceIdeal.Read
import proofs.«140442_j72121090835050_2_alg».proof.Proof.CellBlocks
import proofs.«140442_j72121090835050_2_alg».proof.Proof.ReferenceCell
import Idealize.ShloMosaic.Adequacy
import Idealize.ShloMosaic.Init

noncomputable section

namespace Cert.Proof

open Idealize.ShloMosaic Idealize.SL.Sem Cert.Lstm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of arguments that agree. -/
theorem algebraic : Cert.algebraic_KernelIdeal_ReferenceIdeal := by
  intro m ρ m' ρ' _ hagree
  refine ⟨fun c => Cert.KernelIdeal.Blocks.hiddenArr m c, fun c => Cert.KernelIdeal.Blocks.cellArr m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.ReferenceIdeal.Cell.hidden_array]
    obtain ⟨a0, a1, a2, a3, a4, a5, a6⟩ := hagree c
    show hiddenState _ _ _ _ _ _ _ = hiddenState _ _ _ _ _ _ _
    rw [a0, a1, a2, a3, a4, a5, a6]
  · refine (Cert.ReferenceIdeal.Read.val_main_v38_eq _ _ _ _ _ _ _).trans ?_
    rw [Cert.ReferenceIdeal.Cell.cell_array]
    obtain ⟨a0, a1, a2, a3, a4, a5, a6⟩ := hagree c
    show cellState _ _ _ _ _ _ _ = cellState _ _ _ _ _ _ _
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
